-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x512x512 : Shape := ⟨4, ![8, 4, 512, 512]⟩
abbrev S8x512x512 : Shape := ⟨3, ![8, 512, 512]⟩
abbrev S8x100 : Shape := ⟨2, ![8, 100]⟩
abbrev S8 : Shape := ⟨1, ![8]⟩
abbrev S_ : Shape := ⟨0, ![]⟩

class Facts : Prop where
  bcast_S_S8x4x512x512 : S_.BroadcastsInDim S8x4x512x512 (![] : Fin 0 → Fin S8x4x512x512.rank)
  reducesTo_S8x4x512x512_S_d0_1_2_3 : S8x4x512x512.ReducesTo [0, 1, 2, 3] S_
  h_S_ : 0 < S_.numel
  bcast_S_S8x100 : S_.BroadcastsInDim S8x100 (![] : Fin 0 → Fin S8x100.rank)
  reducesTo_S8x100_S_d0_1 : S8x100.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x4x512x512 .f32) (main_arg1 : IVec S8x512x512 32) (main_arg2 : IVec S8x100 32) (main_arg3 : FVec F S8x100 .f32) (main_arg4 : FVec F S8x100 .f32) (main_arg5 : FVec F S8 .f32) : IVec S_ 1 :=
  let main_v0 : FVec F S8x4x512x512 .f32 := Host.absf main_arg0
  let main_cst : FVec F S_ .f32 := constant S_ .f32 0x7F800000#32
  let main_v1 : FVec F S8x4x512x512 .f32 := broadcastInDim S8x4x512x512 ![] bcast_S_S8x4x512x512 main_cst
  let main_v2 : IVec S8x4x512x512 1 := cmpf .olt main_v0 main_v1
  let main_c : IVec S_ 1 := constantI S_ 1 1#1
  let main_v3 : IVec S_ 1 := (fun x v => Host.reduce IntOp.andi x v reducesTo_S8x4x512x512_S_d0_1_2_3 h_S_) main_v2 main_c
  let main_v4 : FVec F S8x100 .f32 := Host.absf main_arg3
  let main_cst_0 : FVec F S_ .f32 := constant S_ .f32 0x7F800000#32
  let main_v5 : FVec F S8x100 .f32 := broadcastInDim S8x100 ![] bcast_S_S8x100 main_cst_0
  let main_v6 : IVec S8x100 1 := cmpf .olt main_v4 main_v5
  let main_c_1 : IVec S_ 1 := constantI S_ 1 1#1
  let main_v7 : IVec S_ 1 := (fun x v => Host.reduce IntOp.andi x v reducesTo_S8x100_S_d0_1 h_S_) main_v6 main_c_1
  let main_v8 : IVec S_ 1 := andi main_v3 main_v7
  let main_v9 : FVec F S8x100 .f32 := Host.absf main_arg4
  let main_cst_2 : FVec F S_ .f32 := constant S_ .f32 0x7F800000#32
  let main_v10 : FVec F S8x100 .f32 := broadcastInDim S8x100 ![] bcast_S_S8x100 main_cst_2
  let main_v11 : IVec S8x100 1 := cmpf .olt main_v9 main_v10
  let main_c_3 : IVec S_ 1 := constantI S_ 1 1#1
  let main_v12 : IVec S_ 1 := (fun x v => Host.reduce IntOp.andi x v reducesTo_S8x100_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S8x4x512x512 : Shape := ⟨4, ![8, 4, 512, 512]⟩
abbrev S8x512x512 : Shape := ⟨3, ![8, 512, 512]⟩
abbrev S8x100 : Shape := ⟨2, ![8, 100]⟩
abbrev S8 : Shape := ⟨1, ![8]⟩
abbrev S1x4x128x512 : Shape := ⟨4, ![1, 4, 128, 512]⟩
abbrev S1x128x512 : Shape := ⟨3, ![1, 128, 512]⟩
abbrev S1x1x128x512 : Shape := ⟨4, ![1, 1, 128, 512]⟩
abbrev S8x262144 : Shape := ⟨2, ![8, 262144]⟩
abbrev S_ : Shape := ⟨0, ![]⟩
abbrev S8x100x1 : Shape := ⟨3, ![8, 100, 1]⟩
abbrev S1 : Shape := ⟨1, ![1]⟩
abbrev S1x1x1 : Shape := ⟨3, ![1, 1, 1]⟩

abbrev nBuf : Space → Nat
  | .hbm => 40
  | .vmem => 4
  | .smem => 0
  | _ => 0

abbrev bufTy : (tb : Table) → Fin (tcTables nBuf tb) → BufTy
  | .hbm, ⟨0, _⟩ => ⟨S8x4x512x512, .f32⟩
  | .hbm, ⟨1, _⟩ => ⟨S8x512x512, .i32⟩
  | .hbm, ⟨2, _⟩ => ⟨S8x100, .i32⟩
  | .hbm, ⟨3, _⟩ => ⟨S8x100, .f32⟩
  | .hbm, ⟨4, _⟩ => ⟨S8x100, .f32⟩
  | .hbm, ⟨5, _⟩ => ⟨S8, .f32⟩
  | .hbm, ⟨6, _⟩ => ⟨S8x512x512, .f32⟩
  | .hbm, ⟨7, _⟩ => ⟨S8x262144, .f32⟩
  | .hbm, ⟨8, _⟩ => ⟨S_, .i32⟩
  | .hbm, ⟨9, _⟩ => ⟨S8x100, .i32⟩
  | .hbm, ⟨10, _⟩ => ⟨S8x100, .i1⟩
  | .hbm, ⟨11, _⟩ => ⟨S_, .i32⟩
  | .hbm, ⟨12, _⟩ => ⟨S8x100, .i32⟩
  | .hbm, ⟨13, _⟩ => ⟨S8x100, .i32⟩
  | .hbm, ⟨14, _⟩ => ⟨S8x100, .i32⟩
  | .hbm, ⟨15, _⟩ => ⟨S8x100x1, .i32⟩
  | .hbm, ⟨16, _⟩ => ⟨S1, .i32⟩
  | .hbm, ⟨17, _⟩ => ⟨S_, .i32⟩
  | .hbm, ⟨18, _⟩ => ⟨S8x100x1, .i32⟩
  | .hbm, ⟨19, _⟩ => ⟨S8x100x1, .i1⟩
  | .hbm, ⟨20, _⟩ => ⟨S1x1x1, .i32⟩
  | .hbm, ⟨21, _⟩ => ⟨S8x100x1, .i32⟩
  | .hbm, ⟨22, _⟩ => ⟨S8x100x1, .i1⟩
  | .hbm, ⟨23, _⟩ => ⟨S8x100x1, .i1⟩
  | .hbm, ⟨24, _⟩ => ⟨S_, .i1⟩
  | .hbm, ⟨25, _⟩ => ⟨S8x100, .i1⟩
  | .hbm, ⟨26, _⟩ => ⟨S8x100, .f32⟩
  | .hbm, ⟨27, _⟩ => ⟨S_, .f32⟩
  | .hbm, ⟨28, _⟩ => ⟨S8x100, .f32⟩
  | .hbm, ⟨29, _⟩ => ⟨S8x100, .f32⟩
  | .hbm, ⟨30, _⟩ => ⟨S8x100, .f32⟩
  | .hbm, ⟨31, _⟩ => ⟨S8x100, .f32⟩
  | .hbm, ⟨32, _⟩ => ⟨S8x100, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1x4x128x512, .f32⟩
  | .local _ .vmem, ⟨1, _⟩ => ⟨S1x4x128x512, .f32⟩
  | .local _ .vmem, ⟨2, _⟩ => ⟨S1x128x512, .f32⟩
  | .local _ .vmem, ⟨3, _⟩ => ⟨S1x128x512, .f32⟩
  | _, _ => ⟨S8x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x4x128x512_S1x4x128x512_0_0_0_0 : ∀ a, (![0, 0, 0, 0] : Fin 4 → Nat) a + S1x4x128x512.size a ≤ S1x4x128x512.size a
  h_S1x4x128x512 : 0 < S1x4x128x512.numel
  reduces_S1x4x128x512_S1x128x512 : S1x4x128x512.Reduces [1] S1x128x512
  shapeCasts_S1x128x512_S1x1x128x512 : S1x128x512.ShapeCasts S1x1x128x512
  broadcasts_S1x1x128x512_S1x4x128x512 : S1x1x128x512.Broadcasts S1x4x128x512
  slices_S1x4x128x512_o0_1_0_0_S1x1x128x512 : S1x4x128x512.Slices ![0, 1, 0, 0] S1x1x128x512
  shapeCasts_S1x1x128x512_S1x128x512 : S1x1x128x512.ShapeCasts S1x128x512
  inb_S1x128x512_S1x128x512_0_0_0 : ∀ a, (![0, 0, 0] : Fin 3 → Nat) a + S1x128x512.size a ≤ S1x128x512.size a
  h_S1x128x512 : 0 < S1x128x512.numel
  shapeCasts_S8x512x512_S8x262144 : S8x512x512.ShapeCasts S8x262144
  bcast_S_S8x100 : S_.BroadcastsInDim S8x100 (![] : Fin 0 → Fin S8x100.rank)
  shapeCasts_S8x100_S8x100x1 : S8x100.ShapeCasts S8x100x1
  bcast_S_S8x100x1 : S_.BroadcastsInDim S8x100x1 (![] : Fin 0 → Fin S8x100x1.rank)
  bcast_S1_S1x1x1_2 : S1.BroadcastsInDim S1x1x1 (![2] : Fin 1 → Fin S1x1x1.rank)
  bcast_S1x1x1_S8x100x1_0_1_2 : S1x1x1.BroadcastsInDim S8x100x1 (![0, 1, 2] : Fin 3 → Fin S8x100x1.rank)
  reducesTo_S8x100x1_S8x100_d2 : S8x100x1.ReducesTo [2] S8x100
  h_S_ : 0 < S_.numel
  reducesTo_S8x100_S8_d1 : S8x100.ReducesTo [1] S8
  reducesTo_S8_S_d0 : S8.ReducesTo [0] S_
  gather_S8x262144_S8x100x1_S8x100_n_1_0_0_1_2_11_wf : GatherDims.WF S8x262144 S8x100x1 S8x100 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128x512.size a ≤ S8x4x512x512.size a
  hwx0_0 : ∀ i : grid0.Coords, EltTy.bits .f32 = 32 ∨ (Rect.block (s := S8x4x512x512) S1x4x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .f32 = 32 ∨ (Rect.block (s := S8x512x512) S1x128x512.size (cc0_transform_1 i) (hinb0_1 i)).WholeWords (EltTy.packing .f32)

variable [Facts₀]

def gather_S8x262144_S8x100x1_S8x100_n_1_0_0_1_2_11 : GatherDims S8x262144 S8x100x1 S8x100 where
  offsetDims := []
  collapsedSliceDims := [1]
  operandBatchingDims := [0]
  startIndicesBatchingDims := [0]
  startIndexMap := [1]
  indexVectorDim := 2
  sliceSizes := ![1, 1]
  wf := gather_S8x262144_S8x100x1_S8x100_n_1_0_0_1_2_11_wf

abbrev win0_0 : Pipeline.Window sig grid0 :=
  Pipeline.Window.ofSpec (Memref.whole main_arg0) S1x4x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4x512x512 : Shape := ⟨4, ![8, 4, 512, 512]⟩
abbrev S8x512x512 : Shape := ⟨3, ![8, 512, 512]⟩
abbrev S8x100 : Shape := ⟨2, ![8, 100]⟩
abbrev S8 : Shape := ⟨1, ![8]⟩
abbrev S_ : Shape := ⟨0, ![]⟩
abbrev S8x1x512x512 : Shape := ⟨4, ![8, 1, 512, 512]⟩
abbrev S8x262144 : Shape := ⟨2, ![8, 262144]⟩
abbrev S8x100x1 : Shape := ⟨3, ![8, 100, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x4x512x512, .f32⟩
  | .hbm, ⟨1, _⟩ => ⟨S8x512x512, .i32⟩
  | .hbm, ⟨2, _⟩ => ⟨S8x100, .i32⟩
  | .hbm, ⟨3, _⟩ => ⟨S8x100, .f32⟩
  | .hbm, ⟨4, _⟩ => ⟨S8x100, .f32⟩
  | .hbm, ⟨5, _⟩ => ⟨S8, .f32⟩
  | .hbm, ⟨6, _⟩ => ⟨S_, .f32⟩
  | .hbm, ⟨7, _⟩ => ⟨S8x512x512, .f32⟩
  | .hbm, ⟨8, _⟩ => ⟨S_, .f32⟩
  | .hbm, ⟨9, _⟩ => ⟨S8x512x512, .f32⟩
  | .hbm, ⟨10, _⟩ => ⟨S8x512x512, .f32⟩
  | .hbm, ⟨11, _⟩ => ⟨S8x1x512x512, .f32⟩
  | .hbm, ⟨12, _⟩ => ⟨S8x4x512x512, .f32⟩
  | .hbm, ⟨13, _⟩ => ⟨S8x4x512x512, .f32⟩
  | .hbm, ⟨14, _⟩ => ⟨S8x4x512x512, .f32⟩
  | .hbm, ⟨15, _⟩ => ⟨S_, .f32⟩
  | .hbm, ⟨16, _⟩ => ⟨S8x512x512, .f32⟩
  | .hbm, ⟨17, _⟩ => ⟨S8x1x512x512, .f32⟩
  | .hbm, ⟨18, _⟩ => ⟨S8x4x512x512, .f32⟩
  | .hbm, ⟨19, _⟩ => ⟨S8x4x512x512, .f32⟩
  | .hbm, ⟨20, _⟩ => ⟨S8x1x512x512, .f32⟩
  | .hbm, ⟨21, _⟩ => ⟨S8x512x512, .f32⟩
  | .hbm, ⟨22, _⟩ => ⟨S8x262144, .f32⟩
  | .hbm, ⟨23, _⟩ => ⟨S_, .i32⟩
  | .hbm, ⟨24, _⟩ => ⟨S8x100, .i32⟩
  | .hbm, ⟨25, _⟩ => ⟨S8x100, .i1⟩
  | .hbm, ⟨26, _⟩ => ⟨S_, .i32⟩
  | .hbm, ⟨27, _⟩ => ⟨S8x100, .i32⟩
  | .hbm, ⟨28, _⟩ => ⟨S8x100, .i32⟩
  | .hbm, ⟨29, _⟩ => ⟨S8x100, .i32⟩
  | .hbm, ⟨30, _⟩ => ⟨S8x100x1, .i32⟩
  | .hbm, ⟨31, _⟩ => ⟨S1, .i32⟩
  | .hbm, ⟨32, _⟩ => ⟨S_, .i32⟩
  | .hbm, ⟨33, _⟩ => ⟨S8x100x1, .i32⟩
  | .hbm, ⟨34, _⟩ => ⟨S8x100x1, .i1⟩
  | .hbm, ⟨35, _⟩ => ⟨S1x1x1, .i32⟩
  | .hbm, ⟨36, _⟩ => ⟨S8x100x1, .i32⟩
  | .hbm, ⟨37, _⟩ => ⟨S8x100x1, .i1⟩
  | .hbm, ⟨38, _⟩ => ⟨S8x100x1, .i1⟩
  | .hbm, ⟨39, _⟩ => ⟨S_, .i1⟩
  | .hbm, ⟨40, _⟩ => ⟨S8x100, .i1⟩
  | .hbm, ⟨41, _⟩ => ⟨S8x100, .f32⟩
  | .hbm, ⟨42, _⟩ => ⟨S_, .f32⟩
  | .hbm, ⟨43, _⟩ => ⟨S8x100, .f32⟩
  | .hbm, ⟨44, _⟩ => ⟨S8x100, .f32⟩
  | .hbm, ⟨45, _⟩ => ⟨S8x100, .f32⟩
  | .hbm, ⟨46, _⟩ => ⟨S8x100, .f32⟩
  | .hbm, ⟨47, _⟩ => ⟨S8x100, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩

abbrev nD : Nat := 1
abbrev τ : Topo := Topo.v7x

variable {F : FTy → Type} [FloatOps F]

class Facts₀ : Prop where
  reducesTo_S8x4x512x512_S8x512x512_d1 : S8x4x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x4x512x512_0_1_2_3 : S8x1x512x512.BroadcastsInDim S8x4x512x512 (![0, 1, 2, 3] : Fin 4 → Fin S8x4x512x512.rank)
  slices_S8x4x512x512_S8x1x512x512_0_1_0_0 : S8x4x512x512.Slices ![0, 1, 0, 0] S8x1x512x512
  shapeCasts_S8x1x512x512_S8x512x512 : S8x1x512x512.ShapeCasts S8x512x512
  shapeCasts_S8x512x512_S8x262144 : S8x512x512.ShapeCasts S8x262144
  bcast_S_S8x100 : S_.BroadcastsInDim S8x100 (![] : Fin 0 → Fin S8x100.rank)
  shapeCasts_S8x100_S8x100x1 : S8x100.ShapeCasts S8x100x1
  bcast_S_S8x100x1 : S_.BroadcastsInDim S8x100x1 (![] : Fin 0 → Fin S8x100x1.rank)
  bcast_S1_S1x1x1_2 : S1.BroadcastsInDim S1x1x1 (![2] : Fin 1 → Fin S1x1x1.rank)
  bcast_S1x1x1_S8x100x1_0_1_2 : S1x1x1.BroadcastsInDim S8x100x1 (![0, 1, 2] : Fin 3 → Fin S8x100x1.rank)
  reducesTo_S8x100x1_S8x100_d2 : S8x100x1.ReducesTo [2] S8x100
  reducesTo_S8x100_S8_d1 : S8x100.ReducesTo [1] S8
  reducesTo_S8_S_d0 : S8.ReducesTo [0] S_
  gather_S8x262144_S8x100x1_S8x100_n_1_0_0_1_2_11_wf : GatherDims.WF S8x262144 S8x100x1 S8x100 [] [1] [0] [1] [0] 2 ![1, 1]

variable [Facts₀]

def gather_S8x262144_S8x100x1_S8x100_n_1_0_0_1_2_11 : GatherDims S8x262144 S8x100x1 S8x100 where
  offsetDims := []
  collapsedSliceDims := [1]
  operandBatchingDims := [0]
  startIndicesBatchingDims := [0]
  startIndexMap := [1]
  indexVectorDim := 2
  sliceSizes := ![1, 1]
  wf := gather_S8x262144_S8x100x1_S8x100_n_1_0_0_1_2_11_wf

class Facts : Prop extends Facts₀ where

variable [Facts]
-- ==== Proof.Softmax.lean ====
/-
  The probability of class 1 under a softmax over four classes, pixel by pixel, on the extended reals.

  For logits x[b, c, h, w] (8 images, 4 classes, 512 x 512 pixels) put
      M(b, h, w)   = max over the classes c of x[b, c, h, w], folded from the pattern of -inf,
      e(b, c, h, w) = exp (x[b, c, h, w] - M(b, h, w)),
      p(b, h, w)   = e(b, 1, h, w) / (e(b, 0, h, w) + e(b, 1, h, w) + e(b, 2, h, w) + e(b, 3, h, w)).
  Both programs compute p this way, the kernel block by block and the reference on whole arrays; no law of
  arithmetic beyond "a maximum folded from a value absorbs that value" is needed to see it, so the
  statement holds at every extended-real input and the finiteness of the inputs is never used.
-/
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-- The logits' shape: image, class, row, column. -/
abbrev Logits : Shape := ⟨4, ![8, 4, 512, 512]⟩
/-- The probabilities' shape: image, row, column. -/
abbrev Pixels : Shape := ⟨3, ![8, 512, 512]⟩

/-- The largest logit of a pixel over the four classes, folded from the pattern of -inf. -/
def classMax (x : Logits.Idx → EReal) (b : Fin 8) (h w : Fin 512) : EReal :=
  (Finset.univ : Finset (Fin 4)).fold max (Ideal.ofBits .f32 0xFF800000#32) (fun c => x (ix4 b c h w))

/-- The exponential of a logit less its pixel's largest. -/
def shifted (x : Logits.Idx → EReal) (b : Fin 8) (c : Fin 4) (h w : Fin 512) : EReal :=
  Ideal.exp (x (ix4 b c h w) - classMax x b h w)

/-- The softmax probability of class 1 at a pixel. -/
def probAt (x : Logits.Idx → EReal) (b : Fin 8) (h w : Fin 512) : EReal :=
  Ideal.div (shifted x b 1 h w) (∑ c : Fin 4, shifted x b c h w)

/-- The probabilities of class 1 as an array over the pixels. -/
def prob (x : Logits.Idx → EReal) : Pixels.Idx → EReal := fun i => probAt x (i 0) (i 1) (i 2)

theorem prob_ix3 (x : Logits.Idx → EReal) (b : Fin 8) (h w : Fin 512) : prob x (ix3 b h w) = probAt x b h w := rfl

/-- A maximum folded from `b` is at least `b`, so taking the maximum with `b` once more changes nothing. -/
theorem max_fold_absorb {ι : Type} (s : Finset ι) (b : EReal) (f : ι → EReal) :
    max b (s.fold max b f) = s.fold max b f :=
  max_eq_right ((Finset.le_fold_max b).mpr (Or.inl le_rfl))

end Cert.Softmax

end
-- ==== Proof.RefProb.lean ====
/-
  The reference's softmax, read pixel by pixel.

  The reference takes the maximum over the class axis of the whole logits array (from -inf, then once more
  against a broadcast -inf), subtracts it, exponentiates, sums over the class axis from zero, divides, keeps class 1
  and drops the unit class axis. Read at the pixel (b, h, w), each of these stages is the corresponding quantity
  of `Cert.Softmax`: the maximum is `classMax` (the second maximum with -inf is absorbed), the exponentials are
  `shifted`, the sum is their sum over the four classes (zero plus it), and the quotient at class 1 is `probAt`.
-/
import proofs.«113092_j618475291392_1_alg».proof.Proof.Gen.ReferenceIdeal.Read
import proofs.«113092_j618475291392_1_alg».proof.Proof.Softmax
import Idealize.ShloMosaic.PureOps.Reduce
import Idealize.ShloMosaic.PureOps.Ideal.Laws
import Idealize.ShloMosaic.Lib.ValueIdx

noncomputable section

namespace Cert.Softmax.Ref

open Cert.ReferenceIdeal Cert.ReferenceIdeal.Gen Cert.ReferenceIdeal.Read Idealize.ShloMosaic Idealize.ShloMosaic.ValueIdx Cert.Softmax

/-- Dropping the class axis of the logits' shape leaves the pixels' shape. -/
theorem reduces : S8x4x512x512.Reduces [1] S8x512x512 := by decide

/-- The pixel (b, h, w) with the class k put back on the class axis is the logit index (b, k, h, w). -/
theorem lift_eq (b : Fin 8) (h w : Fin 512) (k : Fin 4) : reduces.lift (ix3 b h w) k = ix4 b k h w := by
  funext a; apply Fin.ext
  match a with
  | ⟨0, _⟩ => rfl
  | ⟨1, _⟩ => rfl
  | ⟨2, _⟩ => rfl
  | ⟨3, _⟩ => rfl

/-- The reference's maximum at a pixel is `classMax`: the fold over the four classes from -inf, the further
    maximum with -inf absorbed. -/
theorem max_at (x : (⟨S8x4x512x512, .f32⟩ : BufTy).Contents (Elt Ideal)) (b : Fin 8) (h w : Fin 512) :
    val_main_v2 (F := Ideal) x (ix3 b h w) = classMax x b h w := by
  rw [val_main_v2_apply, val_main_v1_apply, val_main_cst_0_apply]
  unfold val_main_v0
  have e : (x ∘ reduces.lift (ix3 b h w)) = fun c : Fin 4 => x (ix4 b c h w) :=
    funext fun k => congrArg x (lift_eq b h w k)
  have hr : Host.reduce FloatOps.maximumf x (val_main_cst (F := Ideal)) reducesTo_S8x4x512x512_S8x512x512_d1 h_S_ (ix3 b h w)
      = (Finset.univ : Finset (Fin 4)).fold max (Ideal.ofBits .f32 0xFF800000#32) (fun c : Fin 4 => x (ix4 b c h w)) :=
    (Host.reduce_eq_fold_single (FloatOps.maximumf (F := Ideal) (φ := .f32)) x (val_main_cst (F := Ideal)) reducesTo_S8x4x512x512_S8x512x512_d1 reduces h_S_ (ix3 b h w)).trans
      (congrArg (fun f => (Finset.univ : Finset (Fin 4)).fold max (Ideal.ofBits .f32 0xFF800000#32) f) e)
  exact (congrArg (max (Ideal.ofBits .f32 0xFF800000#32)) hr).trans (max_fold_absorb _ _ _)

/-- The reference's exponentials at (b, c, h, w) are `shifted`. -/
theorem exp_at (x : (⟨S8x4x512x512, .f32⟩ : BufTy).Contents (Elt Ideal)) (b : Fin 8) (c : Fin 4) (h w : Fin 512) :
    val_main_v6 (F := Ideal) x (ix4 b c h w) = shifted x b c h w := by
  rw [val_main_v6_apply, val_main_v5_apply, val_main_v4_apply, val_main_v3_apply]
  have e : idx_main_v3 (idx_main_v4 (ix4 b c h w)) = ix3 b h w := by
    funext a; apply Fin.ext
    match a with
    | ⟨0, _⟩ => rfl
    | ⟨1, _⟩ => rfl
    | ⟨2, _⟩ => rfl
  rw [e, max_at]
  rfl

/-- The reference's sum over the classes at a pixel is the sum of the four `shifted` (its starting zero adds nothing). -/
theorem sum_at (x : (⟨S8x4x512x512, .f32⟩ : BufTy).Contents (Elt Ideal)) (b : Fin 8) (h w : Fin 512) :
    val_main_v7 (F := Ideal) x (ix3 b h w) = ∑ c : Fin 4, shifted x b c h w := by
  rw [val_main_v7_apply]
  have e0 : val_main_cst_1 (F := Ideal) (Shape.Idx.first h_S_) = 0 := Ideal.ofBits_zero_f32
  rw [e0, zero_add]
  refine Finset.sum_congr rfl fun k _ => ?_
  have e : idx_main_v7 (ix3 b h w) k = ix4 b k h w := by
    funext a; apply Fin.ext
    match a with
    | ⟨0, _⟩ => rfl
    | ⟨1, _⟩ => rfl
    | ⟨2, _⟩ => rfl
    | ⟨3, _⟩ => rfl
  rw [e, exp_at]

/-- THE REFERENCE'S PROBABILITIES: the array it gathers from is `prob` of the logits. -/
theorem ref_prob (x : (⟨S8x4x512x512, .f32⟩ : BufTy).Contents (Elt Ideal)) : val_main_v12 (F := Ideal) x = prob x := by
  funext i
  obtain ⟨b, h, w, rfl⟩ : ∃ (b : Fin 8) (h w : Fin 512), i = ix3 b h w := ⟨i 0, i 1, i 2, eq_ix3 i⟩
  rw [val_main_v12_apply, val_main_v11_apply, val_main_v10_apply]
  have e : idx_main_v11 (idx_main_v12 (ix3 b h w)) = ix4 b 1 h w := by
    have hb : b.val < 8 := b.isLt
    have hh : h.val < 512 := h.isLt
    have hw : w.val < 512 := w.isLt
    funext a; apply Fin.ext
    match a with
    | ⟨0, _⟩ => show ((b.val * 512 + h.val) * 512 + w.val) / 262144 = b.val; omega
    | ⟨1, _⟩ => rfl
    | ⟨2, _⟩ => show ((b.val * 512 + h.val) * 512 + w.val) / 512 % 512 = h.val; omega
    | ⟨3, _⟩ => show ((b.val * 512 + h.val) * 512 + w.val) % 512 = w.val; omega
  rw [e, exp_at, val_main_v9_apply, val_main_v8_apply]
  have e2 : idx_main_v8 (idx_main_v9 (ix4 b 1 h w)) = ix3 b h w := by
    funext a; apply Fin.ext
    match a with
    | ⟨0, _⟩ => rfl
    | ⟨1, _⟩ => rfl
    | ⟨2, _⟩ => rfl
  rw [e2, sum_at]
  rfl

end Cert.Softmax.Ref

end
-- ==== Proof.Loss.lean ====
/-
  The loss as one function of the pixel probabilities.

  After the probabilities p[b, h, w] are known, both programs do the same thing with them: flatten each image to
  262144 pixels, pick the 100 pixels the index table names for the image (a negative index counted from the end; an
  index outside the image reads the NaN pattern), subtract the targets, square, weight by the validity table, sum the 100 terms
  of each image, divide by the image's term count, sum over the 8 images and divide by 8. `loss` is that computation
  as a function of p and the four tables; the reference's result is `loss` of its own probabilities by unfolding,
  stage by stage.
-/
import proofs.«113092_j618475291392_1_alg».proof.Proof.Gen.ReferenceIdeal.Read
import proofs.«113092_j618475291392_1_alg».proof.Proof.RefProb

noncomputable section

namespace Cert.Softmax.Loss

open Cert.ReferenceIdeal Cert.ReferenceIdeal.Gen Cert.ReferenceIdeal.Read Idealize.ShloMosaic Idealize.ShloMosaic.ValueIdx Cert.Softmax

/-- The probabilities at the pixels the index table names, image by image (the NaN pattern where an index is outside
    the image). -/
def picked (p : (⟨S8x512x512, .f32⟩ : BufTy).Contents (Elt Ideal)) (idx : (⟨S8x100, .i32⟩ : BufTy).Contents (Elt Ideal)) :
    (⟨S8x100, .f32⟩ : BufTy).Contents (Elt Ideal) :=
  select (val_main_call0_v12 (F := Ideal) idx)
    (Host.gather gather_S8x262144_S8x100x1_S8x100_n_1_0_0_1_2_11
      (shapeCast _ p shapeCasts_S8x512x512_S8x262144) (val_main_call0_v5 (F := Ideal) idx))
    (val_main_call0_v14 (F := Ideal))

/-- The mean over the images of the weighted squared differences between the picked probabilities and the targets,
    each image's sum divided by its term count. -/
def loss (p : (⟨S8x512x512, .f32⟩ : BufTy).Contents (Elt Ideal)) (idx : (⟨S8x100, .i32⟩ : BufTy).Contents (Elt Ideal))
    (tgt valid : (⟨S8x100, .f32⟩ : BufTy).Contents (Elt Ideal)) (count : (⟨S8, .f32⟩ : BufTy).Contents (Elt Ideal)) :
    (⟨S_, .f32⟩ : BufTy).Contents (Elt Ideal) :=
  Host.divf (F := Ideal)
    (Host.reduceAdd (F := Ideal)
      (Host.divf (F := Ideal)
        (Host.reduceAdd (F := Ideal)
          (mulf valid (mulf (subf (picked p idx) tgt) (subf (picked p idx) tgt)))
          (constant (F := Ideal) S_ .f32 0x00000000#32) reducesTo_S8x100_S8_d1 h_S_)
        count)
      (constant (F := Ideal) S_ .f32 0x00000000#32) reducesTo_S8_S_d0 h_S_)
    (constant (F := Ideal) S_ .f32 0x41000000#32)

/-- The reference's result is `loss` of the array it gathers from. -/
theorem ref_loss (x0 : (⟨S8x4x512x512, .f32⟩ : BufTy).Contents (Elt Ideal)) (x2 : (⟨S8x100, .i32⟩ : BufTy).Contents (Elt Ideal))
    (x3 x4 : (⟨S8x100, .f32⟩ : BufTy).Contents (Elt Ideal)) (x5 : (⟨S8, .f32⟩ : BufTy).Contents (Elt Ideal)) :
    val_main_v21 (F := Ideal) x0 x2 x3 x4 x5 = loss (val_main_v12 (F := Ideal) x0) x2 x3 x4 x5 := rfl

/-- THE REFERENCE'S RESULT: `loss` of the softmax probabilities of class 1. -/
theorem ref_result (x0 : (⟨S8x4x512x512, .f32⟩ : BufTy).Contents (Elt Ideal)) (x2 : (⟨S8x100, .i32⟩ : BufTy).Contents (Elt Ideal))
    (x3 x4 : (⟨S8x100, .f32⟩ : BufTy).Contents (Elt Ideal)) (x5 : (⟨S8, .f32⟩ : BufTy).Contents (Elt Ideal)) :
    val_main_v21 (F := Ideal) x0 x2 x3 x4 x5 = loss (prob x0) x2 x3 x4 x5 :=
  (ref_loss x0 x2 x3 x4 x5).trans (congrArg (fun p => loss p x2 x3 x4 x5) (Ref.ref_prob x0))

end Cert.Softmax.Loss

end
-- ==== Proof.KernelBlock.lean ====
/-
  The kernel's body on one block, read row by row.

  A block holds the four class planes of 128 rows of one image, x0[0, c, r, w]. The body takes the maximum over the
  class axis from -inf, re-inserts the unit class axis and spreads it over the four classes, subtracts, exponentiates,
  sums over the class axis, keeps the plane of class 1, divides and drops the unit class axis. Read at row r and column w the
  result is the block's own softmax probability of class 1: `blockProb`, which is `Cert.Softmax.probAt` with the
  image and the row offset left out.
-/
import proofs.«113092_j618475291392_1_alg».proof.Proof.Gen.KernelIdeal.Skeleton
import proofs.«113092_j618475291392_1_alg».proof.Proof.Softmax
import Idealize.ShloMosaic.Lib.Pipeline.Value
import Idealize.ShloMosaic.PureOps.Ideal.Laws
import Idealize.ShloMosaic.Lib.ValueIdx

noncomputable section

namespace Cert.Softmax.Block

open Cert.KernelIdeal Cert.KernelIdeal.Gen Idealize.ShloMosaic Idealize.ShloMosaic.ValueIdx Cert.Softmax

/-- The largest of a block pixel's four logits, folded from the pattern of -inf. -/
def blockMax (x0 : FVec Ideal S1x4x128x512 .f32) (r : Fin 128) (w : Fin 512) : EReal :=
  (Finset.univ : Finset (Fin 4)).fold max (Ideal.ofBits .f32 0xFF800000#32) (fun c => x0 (ix4 0 c r w))

/-- The exponential of a block logit less its pixel's largest. -/
def blockShifted (x0 : FVec Ideal S1x4x128x512 .f32) (c : Fin 4) (r : Fin 128) (w : Fin 512) : EReal :=
  Ideal.exp (x0 (ix4 0 c r w) - blockMax x0 r w)

/-- The softmax probability of class 1 at a block pixel. -/
def blockProb (x0 : FVec Ideal S1x4x128x512 .f32) (r : Fin 128) (w : Fin 512) : EReal :=
  Ideal.div (blockShifted x0 1 r w) (∑ c : Fin 4, blockShifted x0 c r w)

/-! ## The layout operations of the body, at a block pixel -/

/-- Dropping the unit class axis: the result at (0, r, w) is the operand at (0, 0, r, w). -/
theorem dropClass_apply (v : S1x1x128x512.Idx → EReal) (r : Fin 128) (w : Fin 512) :
    shapeCast S1x128x512 v shapeCasts_S1x1x128x512_S1x128x512 (ix3 0 r w) = v (ix4 0 0 r w) := by
  refine (shapeCast_dropUnit_apply _ v _ (ix3 0 r w)).trans (congrArg v ?_)
  funext a
  match a with
  | ⟨0, _⟩ => rfl
  | ⟨1, _⟩ => rfl
  | ⟨2, _⟩ => rfl
  | ⟨3, _⟩ => rfl

/-- Inserting the unit class axis: the result at (0, 0, r, w) is the operand at (0, r, w). -/
theorem addClass_apply (v : S1x128x512.Idx → EReal) (r : Fin 128) (w : Fin 512) :
    shapeCast S1x1x128x512 v shapeCasts_S1x128x512_S1x1x128x512 (ix4 0 0 r w) = v (ix3 0 r w) := by
  refine (shapeCast_addUnit_apply _ v _ (ix4 0 0 r w)).trans (congrArg v ?_)
  funext a
  match a with
  | ⟨0, _⟩ => rfl
  | ⟨1, _⟩ => rfl
  | ⟨2, _⟩ => rfl

/-- Spreading a one-class array over the four classes: every class reads class 0 of the operand. -/
theorem spread_apply (v : S1x1x128x512.Idx → EReal) (c : Fin 4) (r : Fin 128) (w : Fin 512) :
    broadcastTo S1x4x128x512 v broadcasts_S1x1x128x512_S1x4x128x512 (ix4 0 c r w) = v (ix4 0 0 r w) :=
  broadcastTo_apply v _ (ix4 0 c r w) (ix4 0 0 r w) (fun a => match a with
    | ⟨0, _⟩ => rfl
    | ⟨1, _⟩ => rfl
    | ⟨2, _⟩ => rfl
    | ⟨3, _⟩ => rfl)

/-- The plane of class 1: the slice at (0, 0, r, w) is the operand at (0, 1, r, w). -/
theorem class1_apply (v : S1x4x128x512.Idx → EReal) (r : Fin 128) (w : Fin 512) :
    extractStridedSlice S1x1x128x512 ![0, 1, 0, 0] v slices_S1x4x128x512_o0_1_0_0_S1x1x128x512 (ix4 0 0 r w) = v (ix4 0 1 r w) :=
  extractStridedSlice_apply _ v _ (ix4 0 0 r w) (ix4 0 1 r w) (fun a => match a with
    | ⟨0, _⟩ => rfl
    | ⟨1, _⟩ => rfl
    | ⟨2, _⟩ => by show r.val = 0 + r.val; omega
    | ⟨3, _⟩ => by show w.val = 0 + w.val; omega)

/-- The block pixel (0, r, w) with the class k put back on the class axis is (0, k, r, w). -/
theorem lift_eq (r : Fin 128) (w : Fin 512) (k : Fin 4) :
    reduces_S1x4x128x512_S1x128x512.lift (ix3 0 r w) k = ix4 0 k r w := by
  funext a; apply Fin.ext
  match a with
  | ⟨0, _⟩ => rfl
  | ⟨1, _⟩ => rfl
  | ⟨2, _⟩ => rfl
  | ⟨3, _⟩ => rfl

/-- The body's maximum over the class axis, at a block pixel. -/
theorem blockMax_apply (x0 : FVec Ideal S1x4x128x512 .f32) (r : Fin 128) (w : Fin 512) :
    multiReduction .maximumf [1] S1x128x512 x0 0xFF800000#32 reduces_S1x4x128x512_S1x128x512 (.inl rfl) rfl (ix3 0 r w)
      = blockMax x0 r w :=
  (Ideal.multiReduction_maximumf_single x0 _ reduces_S1x4x128x512_S1x128x512 _ _ (ix3 0 r w)).trans
    (congrArg (fun f => (Finset.univ : Finset (Fin 4)).fold max (Ideal.ofBits .f32 0xFF800000#32) f)
      (funext fun k => congrArg x0 (lift_eq r w k)))

/-- The body's sum over the class axis, at a block pixel. -/
theorem blockSum_apply (v : FVec Ideal S1x4x128x512 .f32) (r : Fin 128) (w : Fin 512) :
    multiReduction .add [1] S1x128x512 v 0x00000000#32 reduces_S1x4x128x512_S1x128x512 (.inl rfl) rfl (ix3 0 r w)
      = ∑ c : Fin 4, v (ix4 0 c r w) :=
  (Ideal.multiReduction_add_single v _ reduces_S1x4x128x512_S1x128x512 _ _ (ix3 0 r w)).trans
    (Finset.sum_congr rfl fun k _ => congrArg v (lift_eq r w k))

/-! ## The body -/

/-- The body's exponentials: the block less its class maximum, spread back over the classes, exponentiated. -/
def expo (x0 : FVec Ideal S1x4x128x512 .f32) : FVec Ideal S1x4x128x512 .f32 :=
  exp (subf x0 (broadcastTo S1x4x128x512
    (shapeCast S1x1x128x512
      (multiReduction .maximumf [1] S1x128x512 x0 0xFF800000#32 reduces_S1x4x128x512_S1x128x512 (.inl rfl) rfl)
      shapeCasts_S1x128x512_S1x1x128x512)
    broadcasts_S1x1x128x512_S1x4x128x512))

theorem expo_apply (x0 : FVec Ideal S1x4x128x512 .f32) (c : Fin 4) (r : Fin 128) (w : Fin 512) :
    expo x0 (ix4 0 c r w) = blockShifted x0 c r w :=
  congrArg (fun M => Ideal.exp (x0 (ix4 0 c r w) - M))
    ((spread_apply _ c r w).trans ((addClass_apply _ r w).trans (blockMax_apply x0 r w)))

/-- The body's stored value, over its exponentials. -/
theorem pay_eq (x0 : FVec Ideal S1x4x128x512 .f32) :
    k0_pay1 (F := Ideal) x0 = shapeCast S1x128x512
      (divf (extractStridedSlice S1x1x128x512 ![0, 1, 0, 0] (expo x0) slices_S1x4x128x512_o0_1_0_0_S1x1x128x512)
        (shapeCast S1x1x128x512
          (multiReduction .add [1] S1x128x512 (expo x0) 0x00000000#32 reduces_S1x4x128x512_S1x128x512 (.inl rfl) rfl)
          shapeCasts_S1x128x512_S1x1x128x512))
      shapeCasts_S1x1x128x512_S1x128x512 := rfl

/-- THE BODY AT A BLOCK PIXEL: the softmax probability of class 1 there. -/
theorem pay_apply (x0 : FVec Ideal S1x4x128x512 .f32) (r : Fin 128) (w : Fin 512) :
    k0_pay1 (F := Ideal) x0 (ix3 0 r w) = blockProb x0 r w := by
  rw [pay_eq]
  refine (dropClass_apply _ r w).trans ?_
  exact congrArg₂ Ideal.div ((class1_apply _ r w).trans (expo_apply x0 1 r w))
    ((addClass_apply _ r w).trans ((blockSum_apply _ r w).trans (Finset.sum_congr rfl fun c _ => expo_apply x0 c r w)))

end Cert.Softmax.Block

end
-- ==== Proof.KernelArray.lean ====
/-
  From the kernel's blocks to the whole array of probabilities.

  The grid has 8 x 4 points. At the point (b, q) the input block is the four class planes of rows 128 q … 128 q + 127 of
  image b, and the output block is the same rows of image b of the result. So the block pixel (0, c, r, w) of the input is
  the logit (b, c, 128 q + r, w), the block pixel (0, r, w) of the output is the pixel (b, 128 q + r, w), and what the point
  writes back is that block of `Cert.Softmax.prob` of the logits (the body's value at a block pixel being the block's own
  softmax probability, `Block.pay_apply`). Every pixel lies in the block of the point (its image, its row / 128), so the
  array ends holding `prob` of the logits.
-/
import proofs.«113092_j618475291392_1_alg».proof.Proof.Gen.KernelIdeal.Frame
import proofs.«113092_j618475291392_1_alg».proof.Proof.KernelBlock
import Idealize.ShloMosaic.Lib.Pipeline.Value

noncomputable section

namespace Cert.Softmax.Array

open Cert.KernelIdeal Cert.KernelIdeal.Gen Idealize.ShloMosaic Idealize.ShloMosaic.TcCoe Idealize.SL.Sem
open Idealize.ShloMosaic.ValueIdx Cert.Softmax
open Idealize.ShloMosaic.Pipeline (Dat)

variable (m : (ℓ : Loc nD τ sig) → Buf (Elt Ideal) ℓ)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A block whose pixels are the logits of rows of one image has, at each of its pixels, the softmax probability of
    the logits at the corresponding pixel. -/
theorem blockProb_eq (x : Logits.Idx → EReal) (x0 : FVec Ideal S1x4x128x512 .f32) (b : Fin 8) (h w : Fin 512) (r : Fin 128)
    (hx : ∀ c : Fin 4, x0 (ix4 0 c r w) = x (ix4 b c h w)) : Block.blockProb x0 r w = probAt x b h w := by
  have hM : Block.blockMax x0 r w = classMax x b h w :=
    congrArg (fun f => (Finset.univ : Finset (Fin 4)).fold max (Ideal.ofBits .f32 0xFF800000#32) f) (funext hx)
  have hS : ∀ c : Fin 4, Block.blockShifted x0 c r w = shifted x b c h w := fun c => by
    unfold Block.blockShifted shifted; rw [hx c, hM]
  unfold Block.blockProb probAt
  rw [hS 1]
  exact congrArg _ (Finset.sum_congr rfl fun c _ => hS c)

/-- The body's value at a block pixel is `prob` of the logits at an array pixel, once the block pixel's row and column
    and the array pixel's coordinates are named and the block is known to hold the logits there. -/
theorem point_eq (x : Logits.Idx → EReal) (x0 : FVec Ideal S1x4x128x512 .f32) (jj : S1x128x512.Idx) (i : Pixels.Idx)
    (b : Fin 8) (h w : Fin 512) (r : Fin 128)
    (hr : (jj 1).val = r.val) (hw : (jj 2).val = w.val)
    (hi0 : (i 0).val = b.val) (hi1 : (i 1).val = h.val) (hi2 : (i 2).val = w.val)
    (hx : ∀ c : Fin 4, x0 (ix4 0 c r w) = x (ix4 b c h w)) :
    k0_pay1 (F := Ideal) x0 jj = prob x i := by
  have hjj : jj = ix3 0 r w := by
    funext a; apply Fin.ext
    match a with
    | ⟨0, _⟩ => have h0 : (jj 0).val < 1 := (jj 0).isLt; show (jj 0).val = 0; omega
    | ⟨1, _⟩ => exact hr
    | ⟨2, _⟩ => exact hw
  have hi : i = ix3 b h w := by
    funext a; apply Fin.ext
    match a with
    | ⟨0, _⟩ => exact hi0
    | ⟨1, _⟩ => exact hi1
    | ⟨2, _⟩ => exact hi2
  rw [hjj, hi, Block.pay_apply, prob_ix3]
  exact blockProb_eq x x0 b h w r hx

/-- The two windows move together over the grid: the input's block is (image, all classes, row block, all columns), the
    output's (image, row block, all columns), with the same image and row block; decided over the 32 points. -/
theorem blocks_at : ∀ t : Fin cfg0.N,
    win0_0.index t (0 : Fin 4) = win0_1.index t (0 : Fin 3)
    ∧ win0_0.index t (1 : Fin 4) = 0
    ∧ win0_0.index t (2 : Fin 4) = win0_1.index t (1 : Fin 3)
    ∧ win0_0.index t (3 : Fin 4) = 0
    ∧ win0_1.index t (2 : Fin 3) = 0
    ∧ win0_1.index t (0 : Fin 3) ≤ 7
    ∧ win0_1.index t (1 : Fin 3) ≤ 3 :=
  (by decide +kernel : ∀ t : Fin grid0.N, _)

/-- Every (image, row block) is some point's. -/
theorem blocks_onto : ∀ (b : Fin 8) (q : Fin 4), ∃ t : Fin cfg0.N, win0_1.index t = ![b.val, q.val, 0] :=
  (by decide +kernel : ∀ (b : Fin 8) (q : Fin 4), ∃ t : Fin grid0.N, win0_1.index t = ![b.val, q.val, 0])

/-- WHAT POINT `t` WRITES BACK is block `t` of `prob` of the logits as the region finds them. -/
theorem flushed_eq (c : Dev nD) (t : Fin cfg0.N) :
    (dats m 0 c).flushed 1 t = ((cfg0.win 1).blk t).view.read (Elt Ideal) (prob (V m c main_arg0)) := by
  show (cfg0.win 1).cut (grid0.coords t) ((dats m 0 c).after 1 t) = _
  rw [after0_1]
  unfold out0_1
  rw [View.canon_unit_zero zeros3]
  simp only [View.ld_unit_zero (S := S1x4x128x512) zeros4]
  obtain ⟨e0, e1, e2, e3, e4, e5, e6⟩ := blocks_at t
  funext j
  have hj0 : (j 0).val < 1 := (j 0).isLt
  have hj1 : (j 1).val < 128 := (j 1).isLt
  have hj2 : (j 2).val < 512 := (j 2).isLt
  refine point_eq (V m c main_arg0) (iblk m c 0 t) _ _ ⟨win0_1.index t (0 : Fin 3), by omega⟩
    ⟨win0_1.index t (1 : Fin 3) * 128 + (j 1).val, by omega⟩ ⟨(j 2).val, hj2⟩ ⟨(j 1).val, hj1⟩ rfl rfl ?_ ?_ ?_ ?_
  · show win0_1.index t (0 : Fin 3) * 1 + 1 * (j 0).val = win0_1.index t (0 : Fin 3); omega
  · show win0_1.index t (1 : Fin 3) * 128 + 1 * (j 1).val = win0_1.index t (1 : Fin 3) * 128 + (j 1).val; omega
  · show win0_1.index t (2 : Fin 3) * 512 + 1 * (j 2).val = (j 2).val; omega
  · intro cc
    unfold iblk
    rw [View.read_apply]
    show V m c main_arg0 (((cfg0.win 0).blk t).view.emb _) = V m c main_arg0 _
    refine congrArg (V m c main_arg0) (funext fun a => Fin.ext ?_)
    match a with
    | ⟨0, _⟩ => show win0_0.index t (0 : Fin 4) * 1 + 1 * 0 = win0_1.index t (0 : Fin 3); omega
    | ⟨1, _⟩ => show win0_0.index t (1 : Fin 4) * 4 + 1 * cc.val = cc.val; omega
    | ⟨2, _⟩ => show win0_0.index t (2 : Fin 4) * 128 + 1 * (j 1).val = win0_1.index t (1 : Fin 3) * 128 + (j 1).val; omega
    | ⟨3, _⟩ => show win0_0.index t (3 : Fin 4) * 512 + 1 * (j 2).val = (j 2).val; omega

/-- A pixel is in point `t`'s output block iff each coordinate is in the block's range on its axis. -/
theorem mem_blk (t : Fin cfg0.N) (i : S8x512x512.Idx) :
    i ∈ ((cfg0.win 1).blk t).view.set ↔ ∀ a : Fin 3, win0_1.index t a * S1x128x512.size a ≤ (i a).val ∧ (i a).val < win0_1.index t a * S1x128x512.size a + S1x128x512.size a := by
  show i ∈ ((View.whole main_v0).slice (win0_1.rect t)).set ↔ _
  rw [View.set_slice_whole, Rect.mem_set_unit]
  exact Iff.rfl

/-- Every pixel is in the block of the point (its image, its row / 128), which is written back. -/
theorem cover (i : S8x512x512.Idx) : ∃ t : Fin cfg0.N, (cfg0.win 1).flush t = true ∧ i ∈ ((cfg0.win 1).blk t).view.set := by
  have hi0 : (i 0).val < 8 := (i 0).isLt
  have hi1 : (i 1).val < 512 := (i 1).isLt
  have hi2 : (i 2).val < 512 := (i 2).isLt
  obtain ⟨t, ht⟩ := blocks_onto ⟨(i 0).val, hi0⟩ ⟨(i 1).val / 128, by omega⟩
  have q0 : win0_1.index t (0 : Fin 3) = (i 0).val := congrFun ht 0
  have q1 : win0_1.index t (1 : Fin 3) = (i 1).val / 128 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 128 ≤ (i 1).val ∧ (i 1).val < win0_1.index t (1 : Fin 3) * 128 + 128; omega
  | ⟨2, _⟩ => show win0_1.index t (2 : Fin 3) * 512 ≤ (i 2).val ∧ (i 2).val < win0_1.index t (2 : Fin 3) * 512 + 512; omega

/-- THE ARRAY after the region: `prob` of the logits. -/
theorem final (c : Dev nD) : (dats m 0 c).arrAt 1 cfg0.N = prob (m ((c : Thread nD τ).loc main_arg0)) :=
  (dats m 0 c).arrAt_eq_of_cover 1 (prob (V m c main_arg0)) (fun t _ => flushed_eq m c t) cover

end Cert.Softmax.Array

end
-- ==== Proof.KernelLoss.lean ====
/-
  The kernel's host lines after the region.

  After the region the kernel's program flattens the array the region wrote, picks the pixels the index table names,
  and computes the weighted mean of squared differences — the same lines as the reference's, on buffers of its own. Read
  back, its result is `Cert.Softmax.Loss.loss` of the array the region left and of the four tables as launched.
-/
import proofs.«113092_j618475291392_1_alg».proof.Proof.Gen.KernelIdeal.Frame
import proofs.«113092_j618475291392_1_alg».proof.Proof.Loss
import Idealize.ShloMosaic.Lib.Pipeline.Value
import Idealize.ShloMosaic.Lib.StableHlo.Run

noncomputable section

namespace Cert.Softmax.Tail

open Cert.KernelIdeal Cert.KernelIdeal.Gen Idealize.ShloMosaic Idealize.ShloMosaic.TcCoe Idealize.SL.Sem Idealize.ShloMosaic.StableHlo
open Idealize.ShloMosaic.ValueIdx Cert.Softmax

variable (m : (ℓ : Loc nD τ sig) → Buf (Elt Ideal) ℓ)

/-- What the buffers hold when the lines after the region start: the region's arrays as the region left them, every
    other buffer as launched. -/
abbrev atExit (c : Dev nD) : Valuation τ sig (Elt Ideal) :=
  Pipeline.withArrays (cfgs 0).spec c (V0 m c) (fun w => (dats m 0 c).arrAt w (cfgs 0).N)

theorem atExit_probs (c : Dev nD) : atExit m c (Proc.devRef .tc main_v0) = (dats m 0 c).arrAt 1 cfg0.N :=
  Pipeline.withArrays_arr spec0 launch0.win.arr_inj c _ _ 1

theorem atExit_idx (c : Dev nD) : atExit m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)

theorem atExit_tgt (c : Dev nD) : atExit m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

theorem atExit_valid (c : Dev nD) : atExit m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

theorem atExit_count (c : Dev nD) : atExit m c (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)

set_option maxHeartbeats 2000000 in
/-- THE KERNEL'S RESULT, from the array the region left: `loss` of it and of the tables. -/
theorem result_eq (c : Dev nD) :
    Pipeline.afterTail₀ cfgs (dats m) 0 (V0 m) [hostOps1, hostOps1_1, hostOps1_2] c main_v9
      = Loss.loss ((dats m 0 c).arrAt 1 cfg0.N) (m ((c : Thread nD τ).loc main_arg2)) (m ((c : Thread nD τ).loc main_arg3))
          (m ((c : Thread nD τ).loc main_arg4)) (m ((c : Thread nD τ).loc main_arg5)) := by
  unfold Pipeline.afterTail₀
  simp only [hostOps1, hostOps1_1, hostOps1_2, List.flatten_cons, List.flatten_nil, List.append_nil, List.cons_append,
    List.nil_append]
  after_results_simp
  rw [show Pipeline.withArrays (cfgs 0).spec c (V0 m c) (fun w => (dats m 0 c).arrAt w (cfgs 0).N) = atExit m c from rfl]
  rw [atExit_probs, atExit_idx, atExit_tgt, atExit_valid, atExit_count]
  rfl

end Cert.Softmax.Tail

end
-- ==== Proof.KernelRun.lean ====
/-
  The kernel's run, read: every execution ends with the result at `loss` of the softmax probabilities of class 1 of
  the logits, and with the six arguments as launched. The region leaves `prob` of the logits in its array
  (`Array.final`), and the lines after the region compute `loss` of that array (`Tail.result_eq`).
-/
import proofs.«113092_j618475291392_1_alg».proof.Proof.KernelArray
import proofs.«113092_j618475291392_1_alg».proof.Proof.KernelLoss

noncomputable section

namespace Cert.Softmax.Run

open Cert.KernelIdeal Cert.KernelIdeal.Gen Idealize.ShloMosaic Idealize.ShloMosaic.TcCoe Idealize.SL.Sem
open Cert.Softmax

variable (m : (ℓ : Loc nD τ sig) → Buf (Elt Ideal) ℓ) (ρ : Dev nD → PrngReg)

/-- The kernel's result as a function of the launch memory. -/
abbrev result (c : Dev nD) : Buf (Elt Ideal) ((c.tc : Thread nD τ).loc main_v9) :=
  Loss.loss (prob (m ((c.tc : Thread nD τ).loc main_arg0))) (m ((c.tc : Thread nD τ).loc main_arg2))
    (m ((c.tc : Thread nD τ).loc main_arg3)) (m ((c.tc : Thread nD τ).loc main_arg4)) (m ((c.tc : Thread nD τ).loc main_arg5))

theorem kernel_run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v9 (Pipeline.mem_restRefs_of main_v9 (by decide) (by decide))).trans
        ((Tail.result_eq m c).trans (congrArg (fun p => Loss.loss p _ _ _ _) (Array.final m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Softmax.Run

end
-- ==== Proof.lean ====
/-
  The topology loss: a Pallas kernel for the softmax probability of class 1, followed by a gather and a weighted mean of
  squared differences, against the same loss written with jax.nn.softmax.

  Both programs compute, for logits x[b, c, h, w] over 8 images, 4 classes and 512 x 512 pixels,
      p(b, h, w) = exp (x[b, 1, h, w] - M) / Σ_c exp (x[b, c, h, w] - M),   M = max_c x[b, c, h, w],
  the kernel on blocks of 128 rows of one image, the reference on whole arrays (taking the maximum with -inf once
  more, which changes nothing). Then both flatten each image, read the 100 pixels its index table names, and return the mean
  over the images of Σ_k valid[b, k] · (p[b, idx[b, k]] - tgt[b, k])² / count[b]; these lines are the same in the two
  programs. On the extended reals the two results are one function of the arguments, `Softmax.Loss.loss (Softmax.prob x) …`:
    · the reference's stages read pixel by pixel give `prob` (Proof/RefProb.lean) and its last lines are `loss` by
      unfolding (Proof/Loss.lean);
    · the kernel's body at a block pixel is the block's softmax probability (Proof/KernelBlock.lean), each point writes back
      the block of `prob` of the logits and the blocks cover the array (Proof/KernelArray.lean), and the lines after the
      region are `loss` of that array (Proof/KernelLoss.lean, Proof/KernelRun.lean).
  No law that fails at an infinity is used, so the precondition (finite inputs) is not needed for the equality. The three frames are
  the generated frame runs, and the idealization rewrote nothing, so `preserves` is trivial.
-/
import proofs.«113092_j618475291392_1_alg».proof.Defs
import proofs.«113092_j618475291392_1_alg».proof.Proof.Gen.Kernel
import proofs.«113092_j618475291392_1_alg».proof.Proof.Gen.Kernel.Skeleton
import proofs.«113092_j618475291392_1_alg».proof.Proof.Gen.Kernel.Launch
import proofs.«113092_j618475291392_1_alg».proof.Proof.Gen.Kernel.Points
import proofs.«113092_j618475291392_1_alg».proof.Proof.Gen.Kernel.Frame
import proofs.«113092_j618475291392_1_alg».proof.Proof.Gen.KernelIdeal
import proofs.«113092_j618475291392_1_alg».proof.Proof.Gen.KernelIdeal.Skeleton
import proofs.«113092_j618475291392_1_alg».proof.Proof.Gen.KernelIdeal.Launch
import proofs.«113092_j618475291392_1_alg».proof.Proof.Gen.KernelIdeal.Points
import proofs.«113092_j618475291392_1_alg».proof.Proof.Gen.KernelIdeal.Frame
import proofs.«113092_j618475291392_1_alg».proof.Proof.Gen.ReferenceIdeal
import proofs.«113092_j618475291392_1_alg».proof.Proof.Gen.ReferenceIdeal.Run
import proofs.«113092_j618475291392_1_alg».proof.Proof.Gen.ReferenceIdeal.Read
import proofs.«113092_j618475291392_1_alg».proof.Proof.Gen.Pre_finite_inputs
import proofs.«113092_j618475291392_1_alg».proof.Proof.Loss
import proofs.«113092_j618475291392_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the loss of the softmax probabilities of
    class 1 of the logits: the kernel by its run read back, the reference by its run and its stages read pixel by pixel. -/
theorem algebraic : Cert.algebraic_KernelIdeal_ReferenceIdeal := by
  intro m ρ m' ρ' _ hagree
  refine ⟨fun c => Cert.Softmax.Run.result m c, Cert.Softmax.Run.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Softmax.Loss.ref_result, (hagree c).1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
